-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x3 : Shape := ⟨2, ![100000, 3]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S1600000x128 : S_.BroadcastsInDim S1600000x128 (![] : Fin 0 → Fin S1600000x128.rank)
  reducesTo_S1600000x128_S_d0_1 : S1600000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S128x1 .f32) (main_v50 : FVec F S128x1 .f32) : IVec S_ 1 :=
  let main_v51 : IVec S128x1 1 := cmpf .olt main_v49 main_v50
  let main_c_19 : IVec S_ 1 := constantI S_ 1 1#1
  let main_v52 : IVec S_ 1 := (fun x v => Host.reduce IntOp.andi x v reducesTo_S128x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S1 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x1 .f32 := Host.absf main_arg12
  let main_cst_18 : FVec F S_ .f32 := constant S_ .f32 0x7F800000#32
  let main_v50 : FVec F S128x1 .f32 := broadcastInDim S128x1 ![] bcast_S_S128x1 main_cst_18
  fn_part3 (F := F) main_arg13 main_v48 main_v49 main_v50

def fn_part1 {F : FTy → Type} [FloatOps F] (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) (main_v13 : IVec S_ 1) (main_v16 : IVec S1600000x128 1) : IVec S_ 1 :=
  let main_c_5 : IVec S_ 1 := constantI S_ 1 1#1
  let main_v17 : IVec S_ 1 := (fun x v => Host.reduce IntOp.andi x v reducesTo_S1600000x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg8
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : FVec F S100000x3 .f32) (main_arg2 : FVec F S100000x3 .f32) (main_arg3 : FVec F S1600000x128 .f32) (main_arg4 : IVec S1600000 32) (main_arg5 : IVec S1600000 32) (main_arg6 : FVec F S128x128 .f32) (main_arg7 : FVec F S128 .f32) (main_arg8 : FVec F S128x1 .f32) (main_arg9 : FVec F S1 .f32) (main_arg10 : FVec F S128x128 .f32) (main_arg11 : FVec F S128 .f32) (main_arg12 : FVec F S128x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S100000x3 .f32 := Host.absf main_arg2
  let main_cst_2 : FVec F S_ .f32 := constant S_ .f32 0x7F800000#32
  let main_v10 : FVec F S100000x3 .f32 := broadcastInDim S100000x3 ![] bcast_S_S100000x3 main_cst_2
  let main_v11 : IVec S100000x3 1 := cmpf .olt main_v9 main_v10
  let main_c_3 : IVec S_ 1 := constantI S_ 1 1#1
  let main_v12 : IVec S_ 1 := (fun x v => Host.reduce IntOp.andi x v reducesTo_S100000x3_S_d0_1 h_S_) main_v11 main_c_3
  let main_v13 : IVec S_ 1 := andi main_v8 main_v12
  let main_v14 : FVec F S1600000x128 .f32 := Host.absf main_arg3
  let main_cst_4 : FVec F S_ .f32 := constant S_ .f32 0x7F800000#32
  let main_v15 : FVec F S1600000x128 .f32 := broadcastInDim S1600000x128 ![] bcast_S_S1600000x128 main_cst_4
  let main_v16 : IVec S1600000x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S100000x3 : Shape := ⟨2, ![100000, 3]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x128 : Shape := ⟨2, ![1, 128]⟩
abbrev S1x1 : Shape := ⟨2, ![1, 1]⟩
abbrev S1600000x1 : Shape := ⟨2, ![1600000, 1]⟩
abbrev S6400x128 : Shape := ⟨2, ![6400, 128]⟩
abbrev S6400x1 : Shape := ⟨2, ![6400, 1]⟩
abbrev S100000x1 : Shape := ⟨2, ![100000, 1]⟩
abbrev S5000x128 : Shape := ⟨2, ![5000, 128]⟩
abbrev S5000x1 : Shape := ⟨2, ![5000, 1]⟩
abbrev S_ : Shape := ⟨0, ![]⟩
abbrev S1600000x3 : Shape := ⟨2, ![1600000, 3]⟩

abbrev nBuf : Space → Nat
  | .hbm => 49
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S100000x3, .f32⟩
  | .hbm, ⟨3, _⟩ => ⟨S1600000x128, .f32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x128, .f32⟩
  | .hbm, ⟨15, _⟩ => ⟨S1x1, .f32⟩
  | .hbm, ⟨16, _⟩ => ⟨S1600000x1, .f32⟩
  | .hbm, ⟨17, _⟩ => ⟨S1x128, .f32⟩
  | .hbm, ⟨18, _⟩ => ⟨S1x1, .f32⟩
  | .hbm, ⟨19, _⟩ => ⟨S100000x1, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x3, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x3, .f32⟩
  | .hbm, ⟨38, _⟩ => ⟨S1600000x3, .f32⟩
  | .hbm, ⟨39, _⟩ => ⟨S1600000x3, .f32⟩
  | .hbm, ⟨40, _⟩ => ⟨S1600000x3, .f32⟩
  | .hbm, ⟨41, _⟩ => ⟨S_, .f32⟩
  | .hbm, ⟨42, _⟩ => ⟨S100000x3, .f32⟩
  | .hbm, ⟨43, _⟩ => ⟨S1600000x1, .i32⟩
  | .hbm, ⟨44, _⟩ => ⟨S100000x3, .f32⟩
  | .hbm, ⟨45, _⟩ => ⟨S100000x3, .f32⟩
  | .hbm, ⟨46, _⟩ => ⟨S100000x3, .f32⟩
  | .hbm, ⟨47, _⟩ => ⟨S100000x3, .f32⟩
  | .hbm, ⟨48, _⟩ => ⟨S100000x3, .f32⟩
  | .local _ .vmem, ⟨0, _⟩ => ⟨S6400x128, .f32⟩
  | .local _ .vmem, ⟨1, _⟩ => ⟨S6400x128, .f32⟩
  | .local _ .vmem, ⟨2, _⟩ => ⟨S128x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S6400x1, .f32⟩
  | .local _ .vmem, ⟨7, _⟩ => ⟨S6400x1, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c_1 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S6400x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128_S1x128 : S128.ShapeCasts S1x128
  shapeCasts_S1_S1x1 : S1.ShapeCasts S1x1
  inb_S6400x128_S6400x128_0_0 : ∀ a, (![0, 0] : Fin 2 → Nat) a + S6400x128.size a ≤ S6400x128.size a
  h_S6400x128 : 0 < S6400x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6400x1 : S1x1.Broadcasts S6400x1
  inb_S6400x1_S6400x1_0_0 : ∀ a, (![0, 0] : Fin 2 → Nat) a + S6400x1.size a ≤ S6400x1.size a
  h_S6400x1 : 0 < S6400x1.numel
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  bcast_S100000x1_S100000x3_0_1 : S100000x1.BroadcastsInDim S100000x3 (![0, 1] : Fin 2 → Fin S100000x3.rank)
  dot_S6400x128_S128x128_S6400x128_1_0_0_1_n_n_wf : DotDims.WF S6400x128 S128x128 S6400x128 [1] [0] [0] [1] [] []
  dot_S6400x128_S128x1_S6400x1_1_0_0_1_n_n_wf : DotDims.WF S6400x128 S128x1 S6400x1 [1] [0] [0] [1] [] []
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  gather_S100000x3_S1600000x1_S1600000x3_1_0_n_n_0_1_13_wf : GatherDims.WF S100000x3 S1600000x1 S1600000x3 [1] [0] [] [0] [] 1 ![1, 3]
  scatter_S100000x3_S1600000x1_S1600000x3_1_0_0_1_wf : ScatterDims.WF S100000x3 S1600000x1 S1600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S1600000x128.size a
  hwx0_0 : ∀ i : grid0.Coords, EltTy.bits .f32 = 32 ∨ (Rect.block (s := S1600000x128) S6400x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S6400x1.size a ≤ S1600000x1.size a
  hwx0_5 : ∀ i : grid0.Coords, EltTy.bits .f32 = 32 ∨ (Rect.block (s := S1600000x1) S6400x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S128x1.size a
  hwx1_3 : ∀ i : grid1.Coords, EltTy.bits .f32 = 32 ∨ (Rect.block (s := S128x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x1.size a ≤ S100000x1.size a
  hwx1_5 : ∀ i : grid1.Coords, EltTy.bits .f32 = 32 ∨ (Rect.block (s := S100000x1) S5000x1.size (cc1_transform_5 i) (hinb1_5 i)).WholeWords (EltTy.packing .f32)

variable [Facts₀]

def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x128_S128x1_S6400x1_1_0_0_1_n_n : DotDims S6400x128 S128x1 S6400x1 where
  lhsContracting := [1]
  rhsContracting := [0]
  lhsNonContracting := [0]
  rhsNonContracting := [1]
  lhsBatch := []
  rhsBatch := []
  wf := dot_S6400x128_S128x1_S6400x1_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf

abbrev win0_0 : Pipeline.Window sig grid0 :=
  Pipeline.Window.ofSpec (Memref.whole main_arg3) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S6400x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S128x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S5000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x3 : Shape := ⟨2, ![100000, 3]⟩
abbrev S1600000x128 : Shape := ⟨2, ![1600000, 128]⟩
abbrev S1600000 : Shape := ⟨1, ![1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x3 : Shape := ⟨2, ![1600000, 3]⟩
abbrev S1x128 : Shape := ⟨2, ![1, 128]⟩
abbrev S1x1 : Shape := ⟨2, ![1, 1]⟩
abbrev S100000x1 : Shape := ⟨2, ![100000, 1]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S100000x3, .f32⟩
  | .hbm, ⟨3, _⟩ => ⟨S1600000x128, .f32⟩
  | .hbm, ⟨4, _⟩ => ⟨S1600000, .i32⟩
  | .hbm, ⟨5, _⟩ => ⟨S1600000, .i32⟩
  | .hbm, ⟨6, _⟩ => ⟨S128x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x3, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x3, .f32⟩
  | .hbm, ⟨32, _⟩ => ⟨S1600000x3, .f32⟩
  | .hbm, ⟨33, _⟩ => ⟨S1600000x128, .f32⟩
  | .hbm, ⟨34, _⟩ => ⟨S1x128, .f32⟩
  | .hbm, ⟨35, _⟩ => ⟨S1600000x128, .f32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S1600000x128, .f32⟩
  | .hbm, ⟨44, _⟩ => ⟨S1600000x128, .f32⟩
  | .hbm, ⟨45, _⟩ => ⟨S1600000x128, .f32⟩
  | .hbm, ⟨46, _⟩ => ⟨S1600000x1, .f32⟩
  | .hbm, ⟨47, _⟩ => ⟨S1x1, .f32⟩
  | .hbm, ⟨48, _⟩ => ⟨S1600000x1, .f32⟩
  | .hbm, ⟨49, _⟩ => ⟨S1600000x1, .f32⟩
  | .hbm, ⟨50, _⟩ => ⟨S1600000x3, .f32⟩
  | .hbm, ⟨51, _⟩ => ⟨S1600000x3, .f32⟩
  | .hbm, ⟨52, _⟩ => ⟨S_, .f32⟩
  | .hbm, ⟨53, _⟩ => ⟨S100000x3, .f32⟩
  | .hbm, ⟨54, _⟩ => ⟨S1600000x1, .i32⟩
  | .hbm, ⟨55, _⟩ => ⟨S100000x3, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S100000x1, .f32⟩
  | .hbm, ⟨70, _⟩ => ⟨S1x1, .f32⟩
  | .hbm, ⟨71, _⟩ => ⟨S100000x1, .f32⟩
  | .hbm, ⟨72, _⟩ => ⟨S100000x1, .f32⟩
  | .hbm, ⟨73, _⟩ => ⟨S100000x3, .f32⟩
  | .hbm, ⟨74, _⟩ => ⟨S100000x3, .f32⟩
  | .hbm, ⟨75, _⟩ => ⟨S100000x3, .f32⟩
  | .hbm, ⟨76, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S1600000x1_S1600000x3_0_1 : S1600000x1.BroadcastsInDim S1600000x3 (![0, 1] : Fin 2 → Fin S1600000x3.rank)
  bcast_S_S100000x3 : S_.BroadcastsInDim S100000x3 (![] : Fin 0 → Fin S100000x3.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S1x1_S100000x1_0_1 : S1x1.BroadcastsInDim S100000x1 (![0, 1] : Fin 2 → Fin S100000x1.rank)
  bcast_S100000x1_S100000x3_0_1 : S100000x1.BroadcastsInDim S100000x3 (![0, 1] : Fin 2 → Fin S100000x3.rank)
  gather_S100000x3_S1600000x1_S1600000x3_1_0_n_n_0_1_13_wf : GatherDims.WF S100000x3 S1600000x1 S1600000x3 [1] [0] [] [0] [] 1 ![1, 3]
  dot_S1600000x128_S128x128_S1600000x128_1_0_0_1_n_n_wf : DotDims.WF S1600000x128 S128x128 S1600000x128 [1] [0] [0] [1] [] []
  dot_S1600000x128_S128x1_S1600000x1_1_0_0_1_n_n_wf : DotDims.WF S1600000x128 S128x1 S1600000x1 [1] [0] [0] [1] [] []
  scatter_S100000x3_S1600000x1_S1600000x3_1_0_0_1_wf : ScatterDims.WF S100000x3 S1600000x1 S1600000x3 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x3_S1600000x1_S1600000x3_1_0_n_n_0_1_13 : GatherDims S100000x3 S1600000x1 S1600000x3 where
  offsetDims := [1]
  collapsedSliceDims := [0]
  operandBatchingDims := []
  startIndicesBatchingDims := []
  startIndexMap := [0]
  indexVectorDim := 1
  sliceSizes := ![1, 3]
  wf := gather_S100000x3_S1600000x1_S1600000x3_1_0_n_n_0_1_13_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def dot_S1600000x128_S128x1_S1600000x1_1_0_0_1_n_n : DotDims S1600000x128 S128x1 S1600000x1 where
  lhsContracting := [1]
  rhsContracting := [0]
  lhsNonContracting := [0]
  rhsNonContracting := [1]
  lhsBatch := []
  rhsBatch := []
  wf := dot_S1600000x128_S128x1_S1600000x1_1_0_0_1_n_n_wf
def scatter_S100000x3_S1600000x1_S1600000x3_1_0_0_1 : ScatterDims S100000x3 S1600000x1 S1600000x3 where
  updateWindowDims := [1]
  insertedWindowDims := [0]
  scatterDimsToOperandDims := [0]
  indexVectorDim := 1
  wf := scatter_S100000x3_S1600000x1_S1600000x3_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KernelRun.lean ====
/-
  The idealized kernel program's run, with its result named.

  The program is five stretches in a row: two host reshapes, the first tiled perceptron (over the 1,600,000 message
  rows), two more reshapes, the second tiled perceptron (over the 100,000 node rows), and a host tail. The contents of
  every buffer at the four boundaries between stretches form a fold from the launch memory: a host stretch applies
  its operations, a tiled region leaves each of its arrays at what its write-backs fold to and every other buffer
  alone. Every weakly fair execution terminates with every buffer that outlives a region at the end of that fold; in
  particular the result array is the host tail's last value, and the fourteen arguments are as launched.
-/
import proofs.«166237_j2774548873284_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and every buffer that outlives a region ends at the last
    boundary's contents: the five segments composed in order, the first thread state made from the launch memory, the
    last one read against the final state. -/
theorem run_fold : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core holds anything else
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- each segment is entered from what the one before it left; the last leaves the buffers at the fold's end
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- the launch memory is the fold's start
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- buffers held at known contents, beside a final state, are that state's contents
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- The run with the result array named (the host tail's last value, at the end of the fold) and the arguments as
    launched. -/
theorem run_result : θ_run defs (onTc (τ := τ) (main (F := F))) ⟨m, fun _ => 0, ρ⟩ (fun r => ∀ c : Dev nD,
      r.2.mem ((c.tc : Thread nD τ).loc main_v29) = W5 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
      ⟨h c _ (mem_uc main_v29 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c)⟩)
    (run_fold m ρ)

end Cert.KernelIdeal.RunValue

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«166237_j2774548873284_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.Mlp.lean ====
/-
  A two-layer perceptron with one output unit, over the extended reals, one row at a time.

  For a matrix z with R rows and 128 columns, weights w1 (128 by 128) and w2 (128 by 1) and biases b1 (one number per
  hidden unit) and b2 (one number), row r of the result is

      out r = (sum over k of silu (hidden r k) * w2 (k, 0)) + b2,
      hidden r k = (sum over j of z (r, j) * w1 (j, k)) + b1 k,      silu h = h * logistic h.

  Two spellings of that function are read at an index here, for any number of rows R. The first is the vector program
  of a tile: both products taken by the matrix unit into a zero accumulator (their operands changed to a shorter float
  format first, which is the identity on extended reals), the biases held as a 1 by 128 row and a 1 by 1 cell and
  broadcast down the rows, and the logistic function applied as one operation. The second is the array program of a
  host: both products as contractions, the biases as a vector of 128 and a vector of 1 broadcast first to one row and
  then down the rows, and the logistic function spelt 1 / (1 + exp (- h)). Both are `out`, term by term: no law of
  arithmetic is used beyond 0 + x = x, so nothing is asked of the entries (they may be infinite).
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import proofs.«166237_j2774548873284_1_alg».proof.Proof.LibMatmulPlain
import proofs.«166237_j2774548873284_1_alg».proof.Proof.LibHostDotPlain

noncomputable section

open scoped BigOperators

namespace Cert.Mlp

open Idealize.ShloMosaic Idealize.ShloMosaic.ValueIdx

variable {R : Nat}

/-- The hidden layer before its activation: row `r` of `z` against column `k` of `w1`, plus that unit's bias. -/
def hidden (z : FVec Ideal ⟨2, ![R, 128]⟩ .f32) (w1 : FVec Ideal ⟨2, ![128, 128]⟩ .f32) (b1 : Fin 128 → EReal)
    (r : Fin R) (k : Fin 128) : EReal :=
  (∑ j : Fin 128, z (ix2 r j) * w1 (ix2 j k)) + b1 k

/-- The activation: h times the logistic function of h. -/
def silu (h : EReal) : EReal := h * Ideal.logistic h

/-- The perceptron's output for row `r`. -/
def out (z : FVec Ideal ⟨2, ![R, 128]⟩ .f32) (w1 : FVec Ideal ⟨2, ![128, 128]⟩ .f32) (b1 : Fin 128 → EReal)
    (w2 : FVec Ideal ⟨2, ![128, 1]⟩ .f32) (b2 : EReal) (r : Fin R) : EReal :=
  (∑ k : Fin 128, silu (hidden z w1 b1 r k) * w2 (ix2 k (0 : Fin 1))) + b2

/-- The output for a row depends on that row of `z` alone. -/
theorem out_congr {R' : Nat} (z : FVec Ideal ⟨2, ![R, 128]⟩ .f32) (z' : FVec Ideal ⟨2, ![R', 128]⟩ .f32)
    (w1 : FVec Ideal ⟨2, ![128, 128]⟩ .f32) (b1 : Fin 128 → EReal) (w2 : FVec Ideal ⟨2, ![128, 1]⟩ .f32) (b2 : EReal)
    (r : Fin R) (r' : Fin R') (h : ∀ j : Fin 128, z (ix2 r j) = z' (ix2 r' j)) :
    out z w1 b1 w2 b2 r = out z' w1 b1 w2 b2 r' := by
  unfold out hidden
  simp only [h]

/-! ## The tile's vector program -/

/-- A 1 by 128 row broadcast down R rows, read at (r, k), is the row at k. -/
theorem row_bcast_apply (x : FVec Ideal ⟨2, ![1, 128]⟩ .f32) (h : (⟨2, ![1, 128]⟩ : Shape).Broadcasts ⟨2, ![R, 128]⟩)
    (r : Fin R) (k : Fin 128) : broadcastTo ⟨2, ![R, 128]⟩ x h (ix2 r k) = x (ix2 (0 : Fin 1) k) := by
  refine broadcastTo_apply x h (ix2 r k) (ix2 (0 : Fin 1) k) ?_
  intro a
  fin_cases a
  · show (0 : ℕ) = if (1 : ℕ) = 1 then 0 else _
    simp
  · show k.val = if (128 : ℕ) = 1 then 0 else k.val
    simp

/-- A 1 by 1 cell broadcast down R rows, read anywhere, is the cell. -/
theorem cell_bcast_apply (x : FVec Ideal ⟨2, ![1, 1]⟩ .f32) (h : (⟨2, ![1, 1]⟩ : Shape).Broadcasts ⟨2, ![R, 1]⟩)
    (r : Fin R) (q : Fin 1) : broadcastTo ⟨2, ![R, 1]⟩ x h (ix2 r q) = x (ix2 (0 : Fin 1) (0 : Fin 1)) := by
  refine broadcastTo_apply x h (ix2 r q) (ix2 (0 : Fin 1) (0 : Fin 1)) ?_
  intro a
  fin_cases a
  · show (0 : ℕ) = if (1 : ℕ) = 1 then 0 else _
    simp
  · show (0 : ℕ) = if (1 : ℕ) = 1 then 0 else _
    simp

/-- The tile's hidden layer before its activation, at (r, k). -/
theorem tile_hidden_apply (x0 : FVec Ideal ⟨2, ![R, 128]⟩ .f32) (x1 : FVec Ideal ⟨2, ![128, 128]⟩ .f32)
    (x2 : FVec Ideal ⟨2, ![1, 128]⟩ .f32) (hb : FTy.bits .bf16 < FTy.bits .f32)
    (hc : (⟨2, ![1, 128]⟩ : Shape).ShapeCasts ⟨2, ![1, 128]⟩) (hB : (⟨2, ![1, 128]⟩ : Shape).Broadcasts ⟨2, ![R, 128]⟩)
    (r : Fin R) (k : Fin 128) :
    addf (matmul (DotDims.plain R 128 128) none (truncf .bf16 x0 hb) (truncf .bf16 x1 hb)
        (constant (F := Ideal) ⟨2, ![R, 128]⟩ .f32 0x00000000#32))
      (broadcastTo ⟨2, ![R, 128]⟩ (shapeCast ⟨2, ![1, 128]⟩ x2 hc) hB) (ix2 r k)
      = hidden x0 x1 (fun k => x2 (ix2 (0 : Fin 1) k)) r k := by
  show matmul (DotDims.plain R 128 128) none (truncf .bf16 x0 hb) (truncf .bf16 x1 hb)
        (constant (F := Ideal) ⟨2, ![R, 128]⟩ .f32 0x00000000#32) (ix2 r k)
      + broadcastTo ⟨2, ![R, 128]⟩ (shapeCast ⟨2, ![1, 128]⟩ x2 hc) hB (ix2 r k) = _
  rw [MatmulPlain.matmul_zero_apply, shapeCast_self, row_bcast_apply]
  rfl

/-- THE TILE: the vector program of a tile of R rows, read at an index, is `out` of the tile's row. -/
theorem tile_apply (x0 : FVec Ideal ⟨2, ![R, 128]⟩ .f32) (x1 : FVec Ideal ⟨2, ![128, 128]⟩ .f32)
    (x2 : FVec Ideal ⟨2, ![1, 128]⟩ .f32) (x3 : FVec Ideal ⟨2, ![128, 1]⟩ .f32) (x4 : FVec Ideal ⟨2, ![1, 1]⟩ .f32)
    (hb : FTy.bits .bf16 < FTy.bits .f32)
    (hc1 : (⟨2, ![1, 128]⟩ : Shape).ShapeCasts ⟨2, ![1, 128]⟩) (hB1 : (⟨2, ![1, 128]⟩ : Shape).Broadcasts ⟨2, ![R, 128]⟩)
    (hc2 : (⟨2, ![1, 1]⟩ : Shape).ShapeCasts ⟨2, ![1, 1]⟩) (hB2 : (⟨2, ![1, 1]⟩ : Shape).Broadcasts ⟨2, ![R, 1]⟩)
    (H : FVec Ideal ⟨2, ![R, 128]⟩ .f32)
    (hH : H = addf (matmul (DotDims.plain R 128 128) none (truncf .bf16 x0 hb) (truncf .bf16 x1 hb)
        (constant (F := Ideal) ⟨2, ![R, 128]⟩ .f32 0x00000000#32))
      (broadcastTo ⟨2, ![R, 128]⟩ (shapeCast ⟨2, ![1, 128]⟩ x2 hc1) hB1))
    (r : Fin R) (q : Fin 1) :
    addf (matmul (DotDims.plain R 128 1) none (truncf .bf16 (mulf H (logistic H)) hb) (truncf .bf16 x3 hb)
        (constant (F := Ideal) ⟨2, ![R, 1]⟩ .f32 0x00000000#32))
      (broadcastTo ⟨2, ![R, 1]⟩ (shapeCast ⟨2, ![1, 1]⟩ x4 hc2) hB2) (ix2 r q)
      = out x0 x1 (fun k => x2 (ix2 (0 : Fin 1) k)) x3 (x4 (ix2 (0 : Fin 1) (0 : Fin 1))) r := by
  obtain rfl : q = 0 := Subsingleton.elim _ _
  show matmul (DotDims.plain R 128 1) none (truncf .bf16 (mulf H (logistic H)) hb) (truncf .bf16 x3 hb)
        (constant (F := Ideal) ⟨2, ![R, 1]⟩ .f32 0x00000000#32) (ix2 r (0 : Fin 1))
      + broadcastTo ⟨2, ![R, 1]⟩ (shapeCast ⟨2, ![1, 1]⟩ x4 hc2) hB2 (ix2 r (0 : Fin 1)) = _
  rw [MatmulPlain.matmul_zero_apply, shapeCast_self, cell_bcast_apply]
  unfold out
  refine congrArg (· + x4 (ix2 (0 : Fin 1) (0 : Fin 1))) (Finset.sum_congr rfl fun k _ => ?_)
  show (H (ix2 r k) * Ideal.logistic (H (ix2 r k))) * x3 (ix2 k (0 : Fin 1)) = _
  rw [hH, tile_hidden_apply]
  rfl

/-! ## The host's array program -/

/-- A vector of 128 laid as one row and broadcast down R rows, read at (r, k), is the vector at k. -/
theorem vec_rows_apply (b : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![R, 128]⟩ ![0, 1]) (r : Fin R) (k : Fin 128) :
    broadcastInDim ⟨2, ![R, 128]⟩ ![0, 1] h2 (broadcastInDim ⟨2, ![1, 128]⟩ ![1] h1 b) (ix2 r k) = b (ix1 k) := by
  rw [broadcastInDim_oneRow_apply]
  refine broadcastInDim_apply ![1] h1 b (ix2 (0 : Fin 1) k) (ix1 k) ?_
  intro a
  fin_cases a
  show k.val = if (128 : ℕ) = 1 then 0 else k.val
  simp

/-- A vector of 1 laid as one cell and broadcast down R rows, read anywhere, is its entry. -/
theorem vec_cell_apply (b : FVec Ideal ⟨1, ![1]⟩ .f32)
    (h1 : (⟨1, ![1]⟩ : Shape).BroadcastsInDim ⟨2, ![1, 1]⟩ ![1])
    (h2 : (⟨2, ![1, 1]⟩ : Shape).BroadcastsInDim ⟨2, ![R, 1]⟩ ![0, 1]) (r : Fin R) (q : Fin 1) :
    broadcastInDim ⟨2, ![R, 1]⟩ ![0, 1] h2 (broadcastInDim ⟨2, ![1, 1]⟩ ![1] h1 b) (ix2 r q) = b (ix1 (0 : Fin 1)) := by
  rw [broadcastInDim_oneRow_apply]
  refine broadcastInDim_apply ![1] h1 b _ (ix1 (0 : Fin 1)) ?_
  intro a
  fin_cases a
  show (0 : ℕ) = if (1 : ℕ) = 1 then 0 else _
  simp

/-- The host's hidden layer before its activation, at (r, k). -/
theorem host_hidden_apply (z : FVec Ideal ⟨2, ![R, 128]⟩ .f32) (w1 : FVec Ideal ⟨2, ![128, 128]⟩ .f32)
    (b1 : FVec Ideal ⟨1, ![128]⟩ .f32)
    (h1 : (⟨1, ![128]⟩ : Shape).BroadcastsInDim ⟨2, ![1, 128]⟩ ![1])
    (h2 : (⟨2, ![1, 128]⟩ : Shape).BroadcastsInDim ⟨2, ![R, 128]⟩ ![0, 1]) (r : Fin R) (k : Fin 128) :
    addf (Host.dotGeneral (F := Ideal) (DotDims.plain R 128 128) none z w1)
      (broadcastInDim ⟨2, ![R, 128]⟩ ![0, 1] h2 (broadcastInDim ⟨2, ![1, 128]⟩ ![1] h1 b1)) (ix2 r k)
      = hidden z w1 (fun k => b1 (ix1 k)) r k := by
  show Host.dotGeneral (F := Ideal) (DotDims.plain R 128 128) none z w1 (ix2 r k)
      + broadcastInDim ⟨2, ![R, 128]⟩ ![0, 1] h2 (broadcastInDim ⟨2, ![1, 128]⟩ ![1] h1 b1) (ix2 r k) = _
  rw [HostDotPlain.dotGeneral_apply, vec_rows_apply]
  rfl

/-- THE HOST: the array program over R rows, read at an index, is `out` of that row. -/
theorem host_apply (z : FVec Ideal ⟨2, ![R, 128]⟩ .f32) (w1 : FVec Ideal ⟨2, ![128, 128]⟩ .f32)
    (b1 : FVec Ideal ⟨1, ![128]⟩ .f32) (w2 : FVec Ideal ⟨2, ![128, 1]⟩ .f32) (b2 : FVec Ideal ⟨1, ![1]⟩ .f32)
    (h1 : (⟨1, ![128]⟩ : Shape).BroadcastsInDim ⟨2, ![1, 128]⟩ ![1])
    (h2 : (⟨2, ![1, 128]⟩ : Shape).BroadcastsInDim ⟨2, ![R, 128]⟩ ![0, 1])
    (h3 : (⟨0, ![]⟩ : Shape).BroadcastsInDim ⟨2, ![R, 128]⟩ ![])
    (h4 : (⟨1, ![1]⟩ : Shape).BroadcastsInDim ⟨2, ![1, 1]⟩ ![1])
    (h5 : (⟨2, ![1, 1]⟩ : Shape).BroadcastsInDim ⟨2, ![R, 1]⟩ ![0, 1])
    (H : FVec Ideal ⟨2, ![R, 128]⟩ .f32)
    (hH : H = addf (Host.dotGeneral (F := Ideal) (DotDims.plain R 128 128) none z w1)
      (broadcastInDim ⟨2, ![R, 128]⟩ ![0, 1] h2 (broadcastInDim ⟨2, ![1, 128]⟩ ![1] h1 b1)))
    (r : Fin R) (q : Fin 1) :
    addf (Host.dotGeneral (F := Ideal) (DotDims.plain R 128 1) none
        (mulf H (Host.divf (broadcastInDim ⟨2, ![R, 128]⟩ ![] h3 (constant (F := Ideal) ⟨0, ![]⟩ .f32 0x3F800000#32))
          (addf (broadcastInDim ⟨2, ![R, 128]⟩ ![] h3 (constant (F := Ideal) ⟨0, ![]⟩ .f32 0x3F800000#32))
            (Host.exp (Host.negf H))))) w2)
      (broadcastInDim ⟨2, ![R, 1]⟩ ![0, 1] h5 (broadcastInDim ⟨2, ![1, 1]⟩ ![1] h4 b2)) (ix2 r q)
      = out z w1 (fun k => b1 (ix1 k)) w2 (b2 (ix1 (0 : Fin 1))) r := by
  obtain rfl : q = 0 := Subsingleton.elim _ _
  show Host.dotGeneral (F := Ideal) (DotDims.plain R 128 1) none _ w2 (ix2 r (0 : Fin 1))
      + broadcastInDim ⟨2, ![R, 1]⟩ ![0, 1] h5 (broadcastInDim ⟨2, ![1, 1]⟩ ![1] h4 b2) (ix2 r (0 : Fin 1)) = _
  rw [HostDotPlain.dotGeneral_apply, vec_cell_apply]
  unfold out
  refine congrArg (· + b2 (ix1 (0 : Fin 1))) (Finset.sum_congr rfl fun k _ => ?_)
  show (H (ix2 r k) * Ideal.div
      (broadcastInDim ⟨2, ![R, 128]⟩ ![] h3 (constant (F := Ideal) ⟨0, ![]⟩ .f32 0x3F800000#32) (ix2 r k))
      (broadcastInDim ⟨2, ![R, 128]⟩ ![] h3 (constant (F := Ideal) ⟨0, ![]⟩ .f32 0x3F800000#32) (ix2 r k)
        + Ideal.exp (-(H (ix2 r k))))) * w2 (ix2 k (0 : Fin 1)) = _
  rw [broadcastInDim_scalar_apply]
  show (H (ix2 r k) * Ideal.div (Ideal.ofBits .f32 0x3F800000#32)
      (Ideal.ofBits .f32 0x3F800000#32 + Ideal.exp (-(H (ix2 r k))))) * w2 (ix2 k (0 : Fin 1)) = _
  rw [Ideal.ofBits_one_f32, hH, host_hidden_apply]
  rfl

end Cert.Mlp

end
-- ==== Proof.Region0.lean ====
/-
  What the first tiled perceptron leaves in its output array, as one function of the arrays it finds.

  The region runs the tile program once per grid point over 250 points. At point t the tile reads rows
  6400·t … 6400·t + 6399 of the 1600000 by 128 input matrix and the whole of the two weight matrices, the bias row
  and the bias cell (their blocks are the whole arrays at every point), and writes rows 6400·t … 6400·t + 6399 of the
  1600000 by 1 output. The tile's value at a row is the perceptron's output for that row of the tile, and that
  depends on the row alone; so block t of the output is block t of ONE function of the arrays, the perceptron's
  output row by row, and since the 250 blocks of 6400 rows tile the 1600000 rows (row r lies in block r / 6400), the
  output array ends as that function. All of this is for any contents the region is entered with.
-/
import proofs.«166237_j2774548873284_1_alg».proof.Proof.Gen.KernelIdeal.Frame
import proofs.«166237_j2774548873284_1_alg».proof.Proof.Mlp
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The tile's stored value at row p is the perceptron's output for row p of the tile. -/
theorem tile_apply (x0 : Vec Ideal S6400x128 .f32) (x1 : Vec Ideal S128x128 .f32) (x2 : Vec Ideal S1x128 .f32)
    (x3 : Vec Ideal S128x1 .f32) (x4 : Vec Ideal S1x1 .f32) (p : Fin 6400) (q : Fin 1) :
    k0_pay1 x0 x1 x2 x3 x4 (ix2 p q)
      = Cert.Mlp.out x0 x1 (fun k => x2 (ix2 (0 : Fin 1) k)) x3 (x4 (ix2 (0 : Fin 1) (0 : Fin 1))) p :=
  Cert.Mlp.tile_apply x0 x1 x2 x3 x4 _ _ _ _ _ _ rfl p q

/-- The block indices of the six windows, decided over the grid: the input matrix and the output move down one block
    per point, everything else stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The first weight matrix's block at any point is the whole matrix. -/
theorem blk_w1 (c : Dev nD) (t : Fin cfg0.N) : (iblk0 V c 1 t : Vec Ideal S128x128 .f32) = V c main_arg6 := by
  obtain ⟨-, -, e0, e1, -⟩ := idx_facts t
  funext y
  unfold iblk0
  rw [View.read_apply]
  show V c main_arg6 (((cfg0.win 1).blk t).view.emb y) = V c main_arg6 y
  refine congrArg (V c main_arg6) (funext fun a => Fin.ext ?_)
  match a with
  | ⟨0, _⟩ => show win0_1.index t (0 : Fin 2) * 128 + 1 * (y 0).val = (y 0).val; rw [e0]; omega
  | ⟨1, _⟩ => show win0_1.index t (1 : Fin 2) * 128 + 1 * (y 1).val = (y 1).val; rw [e1]; omega

/-- The bias row's block at any point is the whole row. -/
theorem blk_b1 (c : Dev nD) (t : Fin cfg0.N) : (iblk0 V c 2 t : Vec Ideal S1x128 .f32) = V c main_v0 := by
  obtain ⟨-, -, -, -, e0, e1, -⟩ := idx_facts t
  funext y
  unfold iblk0
  rw [View.read_apply]
  show V c main_v0 (((cfg0.win 2).blk t).view.emb y) = V c main_v0 y
  refine congrArg (V c main_v0) (funext fun a => Fin.ext ?_)
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The second weight matrix's block at any point is the whole matrix. -/
theorem blk_w2 (c : Dev nD) (t : Fin cfg0.N) : (iblk0 V c 3 t : Vec Ideal S128x1 .f32) = V c main_arg8 := by
  obtain ⟨-, -, -, -, -, -, e0, e1, -⟩ := idx_facts t
  funext y
  unfold iblk0
  rw [View.read_apply]
  show V c main_arg8 (((cfg0.win 3).blk t).view.emb y) = V c main_arg8 y
  refine congrArg (V c main_arg8) (funext fun a => Fin.ext ?_)
  match a with
  | ⟨0, _⟩ => show win0_3.index t (0 : Fin 2) * 128 + 1 * (y 0).val = (y 0).val; rw [e0]; omega
  | ⟨1, _⟩ => show win0_3.index t (1 : Fin 2) * 1 + 1 * (y 1).val = (y 1).val; rw [e1]; omega

/-- The bias cell's block at any point is the cell. -/
theorem blk_b2 (c : Dev nD) (t : Fin cfg0.N) : (iblk0 V c 4 t : Vec Ideal S1x1 .f32) = V c main_v1 := by
  obtain ⟨-, -, -, -, -, -, -, -, e0, e1, -⟩ := idx_facts t
  funext y
  unfold iblk0
  rw [View.read_apply]
  show V c main_v1 (((cfg0.win 4).blk t).view.emb y) = V c main_v1 y
  refine congrArg (V c main_v1) (funext fun a => Fin.ext ?_)
  match a with
  | ⟨0, _⟩ => show win0_4.index t (0 : Fin 2) * 1 + 1 * (y 0).val = (y 0).val; rw [e0]; omega
  | ⟨1, _⟩ => show win0_4.index t (1 : Fin 2) * 1 + 1 * (y 1).val = (y 1).val; rw [e1]; omega

/-- Row p of the input matrix's block at point t is row 6400·t + p of the matrix. -/
theorem blk_z (c : Dev nD) (t : Fin cfg0.N) (p : Fin 6400) (j : Fin 128) (r : Fin 1600000) (hr : r.val = t.val * 6400 + p.val) :
    (iblk0 V c 0 t : Vec Ideal S6400x128 .f32) (ix2 p j) = (V c main_arg3 : Vec Ideal S1600000x128 .f32) (ix2 r j) := by
  obtain ⟨e0, e1, -⟩ := idx_facts t
  unfold iblk0
  rw [View.read_apply]
  show V c main_arg3 (((cfg0.win 0).blk t).view.emb (ix2 p j)) = V c main_arg3 (ix2 r j)
  refine congrArg (V c main_arg3) (funext fun a => Fin.ext ?_)
  match a with
  | ⟨0, _⟩ => show win0_0.index t (0 : Fin 2) * 6400 + 1 * p.val = r.val; rw [e0, hr]; omega
  | ⟨1, _⟩ => show win0_0.index t (1 : Fin 2) * 128 + 1 * j.val = j.val; rw [e1]; omega

/-- THE OUTPUT ARRAY'S FUNCTION: row r holds the perceptron's output for row r of the input matrix. -/
def G (c : Dev nD) : Vec Ideal S1600000x1 .f32 := fun i =>
  Cert.Mlp.out (V c main_arg3 : Vec Ideal S1600000x128 .f32) (V c main_arg6 : Vec Ideal S128x128 .f32)
    (fun k => (V c main_v0 : Vec Ideal S1x128 .f32) (ix2 (0 : Fin 1) k)) (V c main_arg8 : Vec Ideal S128x1 .f32)
    ((V c main_v1 : Vec Ideal S1x1 .f32) (ix2 (0 : Fin 1) (0 : Fin 1))) (i 0)

/-- What point t writes back is block t of that function. -/
theorem flushed_eq (c : Dev nD) (t : Fin cfg0.N) :
    (dat0 (F := Ideal) V c).flushed 5 t = ((cfg0.win 5).blk t).view.read (Elt Ideal) (G V c) := by
  show (cfg0.win 5).cut (grid0.coords t) ((dat0 (F := Ideal) V c).after 5 t) = _
  rw [after0_5]
  unfold out0_5
  rw [View.canon_unit_zero hz]
  simp only [View.ld_unit_zero (S := S6400x128) hz, View.ld_unit_zero (S := S128x128) hz, View.ld_unit_zero (S := S1x128) hz,
    View.ld_unit_zero (S := S128x1) hz, View.ld_unit_zero (S := S1x1) hz]
  rw [blk_w1 V c t, blk_b1 V c t, blk_w2 V c t, blk_b2 V c t]
  obtain ⟨-, -, -, -, -, -, -, -, -, -, e0, e1⟩ := idx_facts t
  funext y
  obtain ⟨p, q, rfl⟩ : ∃ (p : Fin 6400) (q : Fin 1), y = ix2 p q := ⟨y 0, y 1, eq_ix2 y⟩
  show k0_pay1 (iblk0 V c 0 t) (V c main_arg6) (V c main_v0) (V c main_arg8) (V c main_v1) (ix2 p q)
      = G V c (((cfg0.win 5).blk t).view.emb (ix2 p q))
  refine (tile_apply _ _ _ _ _ p q).trans ?_
  unfold G
  have hlt : t.val * 6400 + p.val < 1600000 := by
    have h1 : t.val < 250 := Nat.lt_of_lt_of_eq t.isLt N_0
    have h2 := p.isLt
    omega
  have hrow : (((cfg0.win 5).blk t).view.emb (ix2 p q)) 0 = (⟨t.val * 6400 + p.val, hlt⟩ : Fin 1600000) := by
    apply Fin.ext
    show win0_5.index t (0 : Fin 2) * 6400 + 1 * p.val = t.val * 6400 + p.val
    rw [e0]; omega
  rw [hrow]
  exact Cert.Mlp.out_congr _ _ _ _ _ _ p ⟨t.val * 6400 + p.val, hlt⟩ fun j => blk_z V c t p j _ rfl

/-- An index of the output array lies in point t's block iff each coordinate lies in the block's range. -/
theorem mem_blk (t : Fin cfg0.N) (i : S1600000x1.Idx) :
    i ∈ ((cfg0.win 5).blk t).view.set ↔ ∀ a : Fin 2, win0_5.index t a * S6400x1.size a ≤ (i a).val ∧ (i a).val < win0_5.index t a * S6400x1.size a + S6400x1.size a := by
  show i ∈ ((View.whole main_v2).slice (win0_5.rect t)).set ↔ _
  rw [View.set_slice_whole, Rect.mem_set_unit]
  exact Iff.rfl

/-- Every row of the output lies in some point's block: row r in block r / 6400. -/
theorem cover (i : S1600000x1.Idx) :
    ∃ t : Fin cfg0.N, (cfg0.win 5).flush t = true ∧ i ∈ ((cfg0.win 5).blk t).view.set := by
  have hi0 : (i 0).val < 1600000 := (i 0).isLt
  have hi1 : (i 1).val < 1 := (i 1).isLt
  have hN : cfg0.N = 250 := N_0
  let t : Fin cfg0.N := ⟨(i 0).val / 6400, by rw [hN]; omega⟩
  obtain ⟨-, -, -, -, -, -, -, -, -, -, e0, e1⟩ := idx_facts t
  have e0' : win0_5.index t (0 : Fin 2) = (i 0).val / 6400 := e0
  refine ⟨t, flush0_5 t, ?_⟩
  rw [mem_blk]
  intro a
  match a with
  | ⟨0, _⟩ => show win0_5.index t (0 : Fin 2) * 6400 ≤ (i 0).val ∧ (i 0).val < win0_5.index t (0 : Fin 2) * 6400 + 6400; rw [e0']; omega
  | ⟨1, _⟩ => show win0_5.index t (1 : Fin 2) * 1 ≤ (i 1).val ∧ (i 1).val < win0_5.index t (1 : Fin 2) * 1 + 1; rw [e1]; omega

/-- THE OUTPUT ARRAY after the region: the perceptron's output, row by row, of the arrays the region was entered with. -/
theorem final (c : Dev nD) : (dat0 (F := Ideal) V c).arrAt 5 cfg0.N = G V c :=
  (dat0 (F := Ideal) V c).arrAt_eq_of_cover 5 (G V c) (fun t _ => flushed_eq V c t) (cover)

end Cert.KernelIdeal.Region0

end
-- ==== Proof.Region1.lean ====
/-
  What the second tiled perceptron leaves in its output array, as one function of the arrays it finds.

  The region runs the tile program once per grid point over 20 points. At point t the tile reads rows
  5000·t … 5000·t + 4999 of the 100000 by 128 input matrix and the whole of the two weight matrices, the bias row
  and the bias cell (their blocks are the whole arrays at every point), and writes rows 5000·t … 5000·t + 4999 of the
  100000 by 1 output. The tile's value at a row is the perceptron's output for that row of the tile, and that
  depends on the row alone; so block t of the output is block t of ONE function of the arrays, the perceptron's
  output row by row, and since the 20 blocks of 5000 rows tile the 100000 rows (row r lies in block r / 5000), the
  output array ends as that function. All of this is for any contents the region is entered with.
-/
import proofs.«166237_j2774548873284_1_alg».proof.Proof.Gen.KernelIdeal.Frame
import proofs.«166237_j2774548873284_1_alg».proof.Proof.Mlp
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The tile's stored value at row p is the perceptron's output for row p of the tile. -/
theorem tile_apply (x0 : Vec Ideal S5000x128 .f32) (x1 : Vec Ideal S128x128 .f32) (x2 : Vec Ideal S1x128 .f32)
    (x3 : Vec Ideal S128x1 .f32) (x4 : Vec Ideal S1x1 .f32) (p : Fin 5000) (q : Fin 1) :
    k1_pay1 x0 x1 x2 x3 x4 (ix2 p q)
      = Cert.Mlp.out x0 x1 (fun k => x2 (ix2 (0 : Fin 1) k)) x3 (x4 (ix2 (0 : Fin 1) (0 : Fin 1))) p :=
  Cert.Mlp.tile_apply x0 x1 x2 x3 x4 _ _ _ _ _ _ rfl p q

/-- The block indices of the six windows, decided over the grid: the input matrix and the output move down one block
    per point, everything else stays at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first weight matrix's block at any point is the whole matrix. -/
theorem blk_w1 (c : Dev nD) (t : Fin cfg1.N) : (iblk1 V c 1 t : Vec Ideal S128x128 .f32) = V c main_arg10 := by
  obtain ⟨-, -, e0, e1, -⟩ := idx_facts t
  funext y
  unfold iblk1
  rw [View.read_apply]
  show V c main_arg10 (((cfg1.win 1).blk t).view.emb y) = V c main_arg10 y
  refine congrArg (V c main_arg10) (funext fun a => Fin.ext ?_)
  match a with
  | ⟨0, _⟩ => show win1_1.index t (0 : Fin 2) * 128 + 1 * (y 0).val = (y 0).val; rw [e0]; omega
  | ⟨1, _⟩ => show win1_1.index t (1 : Fin 2) * 128 + 1 * (y 1).val = (y 1).val; rw [e1]; omega

/-- The bias row's block at any point is the whole row. -/
theorem blk_b1 (c : Dev nD) (t : Fin cfg1.N) : (iblk1 V c 2 t : Vec Ideal S1x128 .f32) = V c main_v3 := by
  obtain ⟨-, -, -, -, e0, e1, -⟩ := idx_facts t
  funext y
  unfold iblk1
  rw [View.read_apply]
  show V c main_v3 (((cfg1.win 2).blk t).view.emb y) = V c main_v3 y
  refine congrArg (V c main_v3) (funext fun a => Fin.ext ?_)
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The second weight matrix's block at any point is the whole matrix. -/
theorem blk_w2 (c : Dev nD) (t : Fin cfg1.N) : (iblk1 V c 3 t : Vec Ideal S128x1 .f32) = V c main_arg12 := by
  obtain ⟨-, -, -, -, -, -, e0, e1, -⟩ := idx_facts t
  funext y
  unfold iblk1
  rw [View.read_apply]
  show V c main_arg12 (((cfg1.win 3).blk t).view.emb y) = V c main_arg12 y
  refine congrArg (V c main_arg12) (funext fun a => Fin.ext ?_)
  match a with
  | ⟨0, _⟩ => show win1_3.index t (0 : Fin 2) * 128 + 1 * (y 0).val = (y 0).val; rw [e0]; omega
  | ⟨1, _⟩ => show win1_3.index t (1 : Fin 2) * 1 + 1 * (y 1).val = (y 1).val; rw [e1]; omega

/-- The bias cell's block at any point is the cell. -/
theorem blk_b2 (c : Dev nD) (t : Fin cfg1.N) : (iblk1 V c 4 t : Vec Ideal S1x1 .f32) = V c main_v4 := by
  obtain ⟨-, -, -, -, -, -, -, -, e0, e1, -⟩ := idx_facts t
  funext y
  unfold iblk1
  rw [View.read_apply]
  show V c main_v4 (((cfg1.win 4).blk t).view.emb y) = V c main_v4 y
  refine congrArg (V c main_v4) (funext fun a => Fin.ext ?_)
  match a with
  | ⟨0, _⟩ => show win1_4.index t (0 : Fin 2) * 1 + 1 * (y 0).val = (y 0).val; rw [e0]; omega
  | ⟨1, _⟩ => show win1_4.index t (1 : Fin 2) * 1 + 1 * (y 1).val = (y 1).val; rw [e1]; omega

/-- Row p of the input matrix's block at point t is row 5000·t + p of the matrix. -/
theorem blk_z (c : Dev nD) (t : Fin cfg1.N) (p : Fin 5000) (j : Fin 128) (r : Fin 100000) (hr : r.val = t.val * 5000 + p.val) :
    (iblk1 V c 0 t : Vec Ideal S5000x128 .f32) (ix2 p j) = (V c main_arg0 : Vec Ideal S100000x128 .f32) (ix2 r j) := by
  obtain ⟨e0, e1, -⟩ := idx_facts t
  unfold iblk1
  rw [View.read_apply]
  show V c main_arg0 (((cfg1.win 0).blk t).view.emb (ix2 p j)) = V c main_arg0 (ix2 r j)
  refine congrArg (V c main_arg0) (funext fun a => Fin.ext ?_)
  match a with
  | ⟨0, _⟩ => show win1_0.index t (0 : Fin 2) * 5000 + 1 * p.val = r.val; rw [e0, hr]; omega
  | ⟨1, _⟩ => show win1_0.index t (1 : Fin 2) * 128 + 1 * j.val = j.val; rw [e1]; omega

/-- THE OUTPUT ARRAY'S FUNCTION: row r holds the perceptron's output for row r of the input matrix. -/
def G (c : Dev nD) : Vec Ideal S100000x1 .f32 := fun i =>
  Cert.Mlp.out (V c main_arg0 : Vec Ideal S100000x128 .f32) (V c main_arg10 : Vec Ideal S128x128 .f32)
    (fun k => (V c main_v3 : Vec Ideal S1x128 .f32) (ix2 (0 : Fin 1) k)) (V c main_arg12 : Vec Ideal S128x1 .f32)
    ((V c main_v4 : Vec Ideal S1x1 .f32) (ix2 (0 : Fin 1) (0 : Fin 1))) (i 0)

/-- What point t writes back is block t of that function. -/
theorem flushed_eq (c : Dev nD) (t : Fin cfg1.N) :
    (dat1 (F := Ideal) V c).flushed 5 t = ((cfg1.win 5).blk t).view.read (Elt Ideal) (G V c) := by
  show (cfg1.win 5).cut (grid1.coords t) ((dat1 (F := Ideal) V c).after 5 t) = _
  rw [after1_5]
  unfold out1_5
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  rw [blk_w1 V c t, blk_b1 V c t, blk_w2 V c t, blk_b2 V c t]
  obtain ⟨-, -, -, -, -, -, -, -, -, -, e0, e1⟩ := idx_facts t
  funext y
  obtain ⟨p, q, rfl⟩ : ∃ (p : Fin 5000) (q : Fin 1), y = ix2 p q := ⟨y 0, y 1, eq_ix2 y⟩
  show k1_pay1 (iblk1 V c 0 t) (V c main_arg10) (V c main_v3) (V c main_arg12) (V c main_v4) (ix2 p q)
      = G V c (((cfg1.win 5).blk t).view.emb (ix2 p q))
  refine (tile_apply _ _ _ _ _ p q).trans ?_
  unfold G
  have hlt : t.val * 5000 + p.val < 100000 := by
    have h1 : t.val < 20 := Nat.lt_of_lt_of_eq t.isLt N_1
    have h2 := p.isLt
    omega
  have hrow : (((cfg1.win 5).blk t).view.emb (ix2 p q)) 0 = (⟨t.val * 5000 + p.val, hlt⟩ : Fin 100000) := by
    apply Fin.ext
    show win1_5.index t (0 : Fin 2) * 5000 + 1 * p.val = t.val * 5000 + p.val
    rw [e0]; omega
  rw [hrow]
  exact Cert.Mlp.out_congr _ _ _ _ _ _ p ⟨t.val * 5000 + p.val, hlt⟩ fun j => blk_z V c t p j _ rfl

/-- An index of the output array lies in point t's block iff each coordinate lies in the block's range. -/
theorem mem_blk (t : Fin cfg1.N) (i : S100000x1.Idx) :
    i ∈ ((cfg1.win 5).blk t).view.set ↔ ∀ a : Fin 2, win1_5.index t a * S5000x1.size a ≤ (i a).val ∧ (i a).val < win1_5.index t a * S5000x1.size a + S5000x1.size a := by
  show i ∈ ((View.whole main_v5).slice (win1_5.rect t)).set ↔ _
  rw [View.set_slice_whole, Rect.mem_set_unit]
  exact Iff.rfl

/-- Every row of the output lies in some point's block: row r in block r / 5000. -/
theorem cover (i : S100000x1.Idx) :
    ∃ t : Fin cfg1.N, (cfg1.win 5).flush t = true ∧ i ∈ ((cfg1.win 5).blk t).view.set := by
  have hi0 : (i 0).val < 100000 := (i 0).isLt
  have hi1 : (i 1).val < 1 := (i 1).isLt
  have hN : cfg1.N = 20 := N_1
  let t : Fin cfg1.N := ⟨(i 0).val / 5000, by rw [hN]; omega⟩
  obtain ⟨-, -, -, -, -, -, -, -, -, -, e0, e1⟩ := idx_facts t
  have e0' : win1_5.index t (0 : Fin 2) = (i 0).val / 5000 := e0
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; rw [e0']; omega
  | ⟨1, _⟩ => show win1_5.index t (1 : Fin 2) * 1 ≤ (i 1).val ∧ (i 1).val < win1_5.index t (1 : Fin 2) * 1 + 1; rw [e1]; omega

/-- THE OUTPUT ARRAY after the region: the perceptron's output, row by row, of the arrays the region was entered with. -/
theorem final (c : Dev nD) : (dat1 (F := Ideal) V c).arrAt 5 cfg1.N = G V c :=
  (dat1 (F := Ideal) V c).arrAt_eq_of_cover 5 (G V c) (fun t _ => flushed_eq V c t) (cover)

end Cert.KernelIdeal.Region1

end
-- ==== Proof.Net.lean ====
/-
  The perceptron over all rows at once, and the host's array program as that array.

  `net z w1 b1 w2 b2` is the R by 1 array whose row r is the perceptron's output for row r of z, with the biases given
  as a vector of 128 and a vector of 1. The host's array program (both products as contractions, the biases broadcast to
  one row and then down the rows, the logistic function spelt out) is this array.
-/
import proofs.«166237_j2774548873284_1_alg».proof.Proof.Mlp

noncomputable section

namespace Cert.Mlp

open Idealize.ShloMosaic Idealize.ShloMosaic.ValueIdx

variable {R : Nat}

/-- The perceptron's outputs, one per row. -/
def net (z : FVec Ideal ⟨2, ![R, 128]⟩ .f32) (w1 : FVec Ideal ⟨2, ![128, 128]⟩ .f32) (b1 : FVec Ideal ⟨1, ![128]⟩ .f32)
    (w2 : FVec Ideal ⟨2, ![128, 1]⟩ .f32) (b2 : FVec Ideal ⟨1, ![1]⟩ .f32) : FVec Ideal ⟨2, ![R, 1]⟩ .f32 :=
  fun i => out z w1 (fun k => b1 (ix1 k)) w2 (b2 (ix1 (0 : Fin 1))) (i 0)

/-- The host's array program over R rows is `net`. -/
theorem host_net (z : FVec Ideal ⟨2, ![R, 128]⟩ .f32) (w1 : FVec Ideal ⟨2, ![128, 128]⟩ .f32)
    (b1 : FVec Ideal ⟨1, ![128]⟩ .f32) (w2 : FVec Ideal ⟨2, ![128, 1]⟩ .f32) (b2 : FVec Ideal ⟨1, ![1]⟩ .f32)
    (h1 : (⟨1, ![128]⟩ : Shape).BroadcastsInDim ⟨2, ![1, 128]⟩ ![1])
    (h2 : (⟨2, ![1, 128]⟩ : Shape).BroadcastsInDim ⟨2, ![R, 128]⟩ ![0, 1])
    (h3 : (⟨0, ![]⟩ : Shape).BroadcastsInDim ⟨2, ![R, 128]⟩ ![])
    (h4 : (⟨1, ![1]⟩ : Shape).BroadcastsInDim ⟨2, ![1, 1]⟩ ![1])
    (h5 : (⟨2, ![1, 1]⟩ : Shape).BroadcastsInDim ⟨2, ![R, 1]⟩ ![0, 1])
    (H : FVec Ideal ⟨2, ![R, 128]⟩ .f32)
    (hH : H = addf (Host.dotGeneral (F := Ideal) (DotDims.plain R 128 128) none z w1)
      (broadcastInDim ⟨2, ![R, 128]⟩ ![0, 1] h2 (broadcastInDim ⟨2, ![1, 128]⟩ ![1] h1 b1))) :
    addf (Host.dotGeneral (F := Ideal) (DotDims.plain R 128 1) none
        (mulf H (Host.divf (broadcastInDim ⟨2, ![R, 128]⟩ ![] h3 (constant (F := Ideal) ⟨0, ![]⟩ .f32 0x3F800000#32))
          (addf (broadcastInDim ⟨2, ![R, 128]⟩ ![] h3 (constant (F := Ideal) ⟨0, ![]⟩ .f32 0x3F800000#32))
            (Host.exp (Host.negf H))))) w2)
      (broadcastInDim ⟨2, ![R, 1]⟩ ![0, 1] h5 (broadcastInDim ⟨2, ![1, 1]⟩ ![1] h4 b2))
      = net z w1 b1 w2 b2 := by
  funext j
  obtain ⟨r, q, rfl⟩ : ∃ (r : Fin R) (q : Fin 1), j = ix2 r q := ⟨j 0, j 1, eq_ix2 j⟩
  exact host_apply z w1 b1 w2 b2 h1 h2 h3 h4 h5 H hH r q

end Cert.Mlp

end
-- ==== Proof.Tail.lean ====
/-
  The message-passing update that follows the two perceptrons, as one function.

  With loc and vel the nodes' positions and velocities (100,000 by 3), send and rec the edges' end points (1,600,000
  node numbers each), pos the per-edge weight (1,600,000 by 1) and velm the per-node velocity scale (100,000 by 1):

      out = (loc + scatter-add over rec of ((loc[send'] - loc[rec']) * pos)) + velm * vel,

  where n' is n + 100,000 for a negative node number n and n otherwise (the wrap-around of a negative index), the
  per-edge and per-node columns are broadcast along the three coordinates, and the scatter-add starts from zeros.
  The dimension records of the gather and of the scatter and the shape facts the broadcasts need are parameters: each
  program supplies its own, and the function does not depend on which proofs they carry.
-/
import Idealize.ShloMosaic.PureOps
import Idealize.ShloMosaic.PureOps.Ideal

noncomputable section

namespace Cert.Tail

open Idealize.ShloMosaic

abbrev Nx3 : Shape := ⟨2, ![100000, 3]⟩
abbrev Nx1 : Shape := ⟨2, ![100000, 1]⟩
abbrev E1 : Shape := ⟨1, ![1600000]⟩
abbrev Ex1 : Shape := ⟨2, ![1600000, 1]⟩
abbrev Ex3 : Shape := ⟨2, ![1600000, 3]⟩
abbrev S0 : Shape := ⟨0, ![]⟩

/-- A negative node number n stands for n + 100,000. -/
def wrap (h0 : S0.BroadcastsInDim E1 ![]) (x : (⟨E1, .i32⟩ : BufTy).Contents (Elt Ideal)) :
    (⟨E1, .i32⟩ : BufTy).Contents (Elt Ideal) :=
  select (cmpi .slt x (broadcastInDim E1 ![] h0 (constantI S0 32 0#32)))
    (addi x (broadcastInDim E1 ![] h0 (constantI S0 32 100000#32))) x

/-- The update, from the positions, velocities, edge end points, per-edge weights and per-node scales. -/
def tail (gd : GatherDims Nx3 Ex1 Ex3) (sd : ScatterDims Nx3 Ex1 Ex3)
    (h0 : S0.BroadcastsInDim E1 ![]) (h1 : E1.BroadcastsInDim Ex1 ![0]) (h2 : Ex1.BroadcastsInDim Ex3 ![0, 1])
    (h3 : S0.BroadcastsInDim Nx3 ![]) (h4 : Nx1.BroadcastsInDim Nx3 ![0, 1])
    (loc vel : (⟨Nx3, .f32⟩ : BufTy).Contents (Elt Ideal)) (send rec : (⟨E1, .i32⟩ : BufTy).Contents (Elt Ideal))
    (pos : (⟨Ex1, .f32⟩ : BufTy).Contents (Elt Ideal)) (velm : (⟨Nx1, .f32⟩ : BufTy).Contents (Elt Ideal)) :
    (⟨Nx3, .f32⟩ : BufTy).Contents (Elt Ideal) :=
  addf (addf loc
      (Host.scatterAdd sd (broadcastInDim Nx3 ![] h3 (constant (F := Ideal) S0 .f32 0x00000000#32))
        (broadcastInDim Ex1 ![0] h1 rec)
        (mulf (subf (Host.gather gd loc (broadcastInDim Ex1 ![0] h1 (wrap h0 send)))
            (Host.gather gd loc (broadcastInDim Ex1 ![0] h1 (wrap h0 rec))))
          (broadcastInDim Ex3 ![0, 1] h2 pos))))
    (mulf (broadcastInDim Nx3 ![0, 1] h4 velm) vel)

/-- The update does not depend on which dimension records (equal ones) it is given. -/
theorem tail_congr (gd gd' : GatherDims Nx3 Ex1 Ex3) (sd sd' : ScatterDims Nx3 Ex1 Ex3) (hg : gd = gd') (hs : sd = sd')
    (h0 h0' : S0.BroadcastsInDim E1 ![]) (h1 h1' : E1.BroadcastsInDim Ex1 ![0]) (h2 h2' : Ex1.BroadcastsInDim Ex3 ![0, 1])
    (h3 h3' : S0.BroadcastsInDim Nx3 ![]) (h4 h4' : Nx1.BroadcastsInDim Nx3 ![0, 1])
    (loc vel : (⟨Nx3, .f32⟩ : BufTy).Contents (Elt Ideal)) (send rec : (⟨E1, .i32⟩ : BufTy).Contents (Elt Ideal))
    (pos : (⟨Ex1, .f32⟩ : BufTy).Contents (Elt Ideal)) (velm : (⟨Nx1, .f32⟩ : BufTy).Contents (Elt Ideal)) :
    tail gd sd h0 h1 h2 h3 h4 loc vel send rec pos velm = tail gd' sd' h0' h1' h2' h3' h4' loc vel send rec pos velm := by
  subst hg hs
  rfl

end Cert.Tail

end
-- ==== Proof.KernelValue.lean ====
/-
  The idealized kernel program's result as one term of its arguments.

  The fold of buffer contents through the program's five stretches is read back here, one buffer at a time:
  an argument no stretch writes is as launched at every boundary; each bias, reshaped by the host to a row (or a
  cell) before its region, reads there as the bias itself; each region's output array is the perceptron's outputs
  row by row (the region's value, for any entry contents, specialised to these); the first region's output survives
  the second region untouched; and the host tail, applied to all of these, is the message-passing update of the
  positions, velocities, edge end points and the two perceptrons' outputs.
-/
import proofs.«166237_j2774548873284_1_alg».proof.Proof.Gen.KernelIdeal.Frame
import proofs.«166237_j2774548873284_1_alg».proof.Proof.Region0
import proofs.«166237_j2774548873284_1_alg».proof.Proof.Region1
import proofs.«166237_j2774548873284_1_alg».proof.Proof.Net
import proofs.«166237_j2774548873284_1_alg».proof.Proof.Tail
import Idealize.ShloMosaic.Lib.StableHlo.Run
import Idealize.ShloMosaic.Lib.ValueLayout

set_option maxRecDepth 16384

noncomputable section

open Idealize.ShloMosaic Idealize.ShloMosaic.TcCoe Idealize.SL.Sem

namespace Cert.KernelIdeal.FoldValue

open Cert.KernelIdeal Cert.KernelIdeal.Gen Idealize.ShloMosaic.ValueIdx

variable (m : (ℓ : Loc nD τ sig) → Buf (Elt Ideal) ℓ) (ρ : Dev nD → PrngReg) (c : Dev nD)

/-! ## Arguments at the boundaries -/

/-- `main_arg3` is written by neither reshape: it enters the first region as launched. -/
theorem W1_main_arg3 : W1 m ρ c (Proc.devRef .tc main_arg3) = m ((c : Thread nD τ).loc main_arg3) := by
  show StableHlo.after hostOps0 (W0 m ρ c) (Proc.devRef .tc main_arg3) = _
  after_results <;> rfl

/-- `main_arg6` is written by neither reshape: it enters the first region as launched. -/
theorem W1_main_arg6 : W1 m ρ c (Proc.devRef .tc main_arg6) = m ((c : Thread nD τ).loc main_arg6) := by
  show StableHlo.after hostOps0 (W0 m ρ c) (Proc.devRef .tc main_arg6) = _
  after_results <;> rfl

/-- `main_arg8` is written by neither reshape: it enters the first region as launched. -/
theorem W1_main_arg8 : W1 m ρ c (Proc.devRef .tc main_arg8) = m ((c : Thread nD τ).loc main_arg8) := by
  show StableHlo.after hostOps0 (W0 m ρ c) (Proc.devRef .tc main_arg8) = _
  after_results <;> rfl

/-- `main_arg11` is written by neither of the first two reshapes and is no array of the first region. -/
theorem W2_main_arg11 : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results <;> rfl)

/-- `main_arg13` is written by neither of the first two reshapes and is no array of the first region. -/
theorem W2_main_arg13 : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results <;> rfl)

/-- `main_arg0` is written by no host operation and is no array of the first region: it enters the second region as launched. -/
theorem W3_main_arg0 : W3 m ρ c (Proc.devRef .tc main_arg0) = m ((c : Thread nD τ).loc main_arg0) :=
  calc W3 m ρ c (Proc.devRef .tc main_arg0)
    _ = W2 m ρ c (Proc.devRef .tc main_arg0) := by
      show StableHlo.after hostOps1 (W2 m ρ c) (Proc.devRef .tc main_arg0) = _
      after_results <;> rfl
    _ = W1 m ρ c (Proc.devRef .tc main_arg0) := W2_of_ne m ρ c main_arg0 (by decide)
    _ = m ((c : Thread nD τ).loc main_arg0) := by
      show StableHlo.after hostOps0 (W0 m ρ c) (Proc.devRef .tc main_arg0) = _
      after_results <;> rfl

/-- `main_arg10` is written by no host operation and is no array of the first region: it enters the second region as launched. -/
theorem W3_main_arg10 : W3 m ρ c (Proc.devRef .tc main_arg10) = m ((c : Thread nD τ).loc main_arg10) :=
  calc W3 m ρ c (Proc.devRef .tc main_arg10)
    _ = W2 m ρ c (Proc.devRef .tc main_arg10) := by
      show StableHlo.after hostOps1 (W2 m ρ c) (Proc.devRef .tc main_arg10) = _
      after_results <;> rfl
    _ = W1 m ρ c (Proc.devRef .tc main_arg10) := W2_of_ne m ρ c main_arg10 (by decide)
    _ = m ((c : Thread nD τ).loc main_arg10) := by
      show StableHlo.after hostOps0 (W0 m ρ c) (Proc.devRef .tc main_arg10) = _
      after_results <;> rfl

/-- `main_arg12` is written by no host operation and is no array of the first region: it enters the second region as launched. -/
theorem W3_main_arg12 : W3 m ρ c (Proc.devRef .tc main_arg12) = m ((c : Thread nD τ).loc main_arg12) :=
  calc W3 m ρ c (Proc.devRef .tc main_arg12)
    _ = W2 m ρ c (Proc.devRef .tc main_arg12) := by
      show StableHlo.after hostOps1 (W2 m ρ c) (Proc.devRef .tc main_arg12) = _
      after_results <;> rfl
    _ = W1 m ρ c (Proc.devRef .tc main_arg12) := W2_of_ne m ρ c main_arg12 (by decide)
    _ = m ((c : Thread nD τ).loc main_arg12) := by
      show StableHlo.after hostOps0 (W0 m ρ c) (Proc.devRef .tc main_arg12) = _
      after_results <;> rfl

/-- `main_arg1` is written by no host operation and is no array of the first region: it enters the second region as launched. -/
theorem W3_main_arg1 : W3 m ρ c (Proc.devRef .tc main_arg1) = m ((c : Thread nD τ).loc main_arg1) :=
  calc W3 m ρ c (Proc.devRef .tc main_arg1)
    _ = W2 m ρ c (Proc.devRef .tc main_arg1) := by
      show StableHlo.after hostOps1 (W2 m ρ c) (Proc.devRef .tc main_arg1) = _
      after_results <;> rfl
    _ = W1 m ρ c (Proc.devRef .tc main_arg1) := W2_of_ne m ρ c main_arg1 (by decide)
    _ = m ((c : Thread nD τ).loc main_arg1) := by
      show StableHlo.after hostOps0 (W0 m ρ c) (Proc.devRef .tc main_arg1) = _
      after_results <;> rfl

/-- `main_arg2` is written by no host operation and is no array of the first region: it enters the second region as launched. -/
theorem W3_main_arg2 : W3 m ρ c (Proc.devRef .tc main_arg2) = m ((c : Thread nD τ).loc main_arg2) :=
  calc W3 m ρ c (Proc.devRef .tc main_arg2)
    _ = W2 m ρ c (Proc.devRef .tc main_arg2) := by
      show StableHlo.after hostOps1 (W2 m ρ c) (Proc.devRef .tc main_arg2) = _
      after_results <;> rfl
    _ = W1 m ρ c (Proc.devRef .tc main_arg2) := W2_of_ne m ρ c main_arg2 (by decide)
    _ = m ((c : Thread nD τ).loc main_arg2) := by
      show StableHlo.after hostOps0 (W0 m ρ c) (Proc.devRef .tc main_arg2) = _
      after_results <;> rfl

/-- `main_arg4` is written by no host operation and is no array of the first region: it enters the second region as launched. -/
theorem W3_main_arg4 : W3 m ρ c (Proc.devRef .tc main_arg4) = m ((c : Thread nD τ).loc main_arg4) :=
  calc W3 m ρ c (Proc.devRef .tc main_arg4)
    _ = W2 m ρ c (Proc.devRef .tc main_arg4) := by
      show StableHlo.after hostOps1 (W2 m ρ c) (Proc.devRef .tc main_arg4) = _
      after_results <;> rfl
    _ = W1 m ρ c (Proc.devRef .tc main_arg4) := W2_of_ne m ρ c main_arg4 (by decide)
    _ = m ((c : Thread nD τ).loc main_arg4) := by
      show StableHlo.after hostOps0 (W0 m ρ c) (Proc.devRef .tc main_arg4) = _
      after_results <;> rfl

/-- `main_arg5` is written by no host operation and is no array of the first region: it enters the second region as launched. -/
theorem W3_main_arg5 : W3 m ρ c (Proc.devRef .tc main_arg5) = m ((c : Thread nD τ).loc main_arg5) :=
  calc W3 m ρ c (Proc.devRef .tc main_arg5)
    _ = W2 m ρ c (Proc.devRef .tc main_arg5) := by
      show StableHlo.after hostOps1 (W2 m ρ c) (Proc.devRef .tc main_arg5) = _
      after_results <;> rfl
    _ = W1 m ρ c (Proc.devRef .tc main_arg5) := W2_of_ne m ρ c main_arg5 (by decide)
    _ = m ((c : Thread nD τ).loc main_arg5) := by
      show StableHlo.after hostOps0 (W0 m ρ c) (Proc.devRef .tc main_arg5) = _
      after_results <;> rfl

/-- `main_arg1` is no array of the second region: it reaches the host tail as launched. -/
theorem W4_main_arg1 : W4 m ρ c (Proc.devRef .tc main_arg1) = m ((c : Thread nD τ).loc main_arg1) :=
  (W4_of_ne m ρ c main_arg1 (by decide)).trans (W3_main_arg1 m ρ c)

/-- `main_arg2` is no array of the second region: it reaches the host tail as launched. -/
theorem W4_main_arg2 : W4 m ρ c (Proc.devRef .tc main_arg2) = m ((c : Thread nD τ).loc main_arg2) :=
  (W4_of_ne m ρ c main_arg2 (by decide)).trans (W3_main_arg2 m ρ c)

/-- `main_arg4` is no array of the second region: it reaches the host tail as launched. -/
theorem W4_main_arg4 : W4 m ρ c (Proc.devRef .tc main_arg4) = m ((c : Thread nD τ).loc main_arg4) :=
  (W4_of_ne m ρ c main_arg4 (by decide)).trans (W3_main_arg4 m ρ c)

/-- `main_arg5` is no array of the second region: it reaches the host tail as launched. -/
theorem W4_main_arg5 : W4 m ρ c (Proc.devRef .tc main_arg5) = m ((c : Thread nD τ).loc main_arg5) :=
  (W4_of_ne m ρ c main_arg5 (by decide)).trans (W3_main_arg5 m ρ c)

/-! ## The biases as the regions find them -/

/-- The first perceptron's hidden bias, reshaped to a row, reads at (0, k) as the bias at k. -/
theorem b1_pos (k : Fin 128) : (V1 m ρ c main_v0 : Vec Ideal S1x128 .f32) (ix2 (0 : Fin 1) k)
    = (m ((c : Thread nD τ).loc main_arg7) : Vec Ideal S128 .f32) (ix1 k) := by
  have e : (V1 m ρ c main_v0 : Vec Ideal S1x128 .f32)
      = shapeCast S1x128 (m ((c : Thread nD τ).loc main_arg7) : Vec Ideal S128 .f32) Facts₀.shapeCasts_S128_S1x128 := by
    show StableHlo.after hostOps0 (W0 m ρ c) (Proc.devRef .tc main_v0) = _
    after_results <;> rfl
  rw [e]
  exact shapeCast_a_1a_apply _ _ (0 : Fin 1) k

/-- The first perceptron's output bias, reshaped to a cell, reads as the bias. -/
theorem b2_pos : (V1 m ρ c main_v1 : Vec Ideal S1x1 .f32) (ix2 (0 : Fin 1) (0 : Fin 1))
    = (m ((c : Thread nD τ).loc main_arg9) : Vec Ideal S1 .f32) (ix1 (0 : Fin 1)) := by
  have e : (V1 m ρ c main_v1 : Vec Ideal S1x1 .f32)
      = shapeCast S1x1 (m ((c : Thread nD τ).loc main_arg9) : Vec Ideal S1 .f32) Facts₀.shapeCasts_S1_S1x1 := by
    show StableHlo.after hostOps0 (W0 m ρ c) (Proc.devRef .tc main_v1) = _
    after_results <;> rfl
  rw [e]
  exact shapeCast_a_1a_apply _ _ (0 : Fin 1) (0 : Fin 1)

/-- The second perceptron's hidden bias, reshaped to a row, reads at (0, k) as the bias at k. -/
theorem b1_vel (k : Fin 128) : (V3 m ρ c main_v3 : Vec Ideal S1x128 .f32) (ix2 (0 : Fin 1) k)
    = (m ((c : Thread nD τ).loc main_arg11) : Vec Ideal S128 .f32) (ix1 k) := by
  have e : (V3 m ρ c main_v3 : Vec Ideal S1x128 .f32)
      = shapeCast S1x128 (W2 m ρ c (Proc.devRef .tc main_arg11) : Vec Ideal S128 .f32) Facts₀.shapeCasts_S128_S1x128 := by
    show StableHlo.after hostOps1 (W2 m ρ c) (Proc.devRef .tc main_v3) = _
    after_results <;> rfl
  rw [e, W2_main_arg11]
  exact shapeCast_a_1a_apply _ _ (0 : Fin 1) k

/-- The second perceptron's output bias, reshaped to a cell, reads as the bias. -/
theorem b2_vel : (V3 m ρ c main_v4 : Vec Ideal S1x1 .f32) (ix2 (0 : Fin 1) (0 : Fin 1))
    = (m ((c : Thread nD τ).loc main_arg13) : Vec Ideal S1 .f32) (ix1 (0 : Fin 1)) := by
  have e : (V3 m ρ c main_v4 : Vec Ideal S1x1 .f32)
      = shapeCast S1x1 (W2 m ρ c (Proc.devRef .tc main_arg13) : Vec Ideal S1 .f32) Facts₀.shapeCasts_S1_S1x1 := by
    show StableHlo.after hostOps1 (W2 m ρ c) (Proc.devRef .tc main_v4) = _
    after_results <;> rfl
  rw [e, W2_main_arg13]
  exact shapeCast_a_1a_apply _ _ (0 : Fin 1) (0 : Fin 1)

/-! ## The two regions' outputs -/

/-- The per-edge weights: the first perceptron over the message rows. -/
theorem pos_eq : Region0.G (V1 m ρ) c
    = Cert.Mlp.net (m ((c : Thread nD τ).loc main_arg3) : Vec Ideal S1600000x128 .f32) (m ((c : Thread nD τ).loc main_arg6) : Vec Ideal S128x128 .f32)
        (m ((c : Thread nD τ).loc main_arg7) : Vec Ideal S128 .f32) (m ((c : Thread nD τ).loc main_arg8) : Vec Ideal S128x1 .f32) (m ((c : Thread nD τ).loc main_arg9) : Vec Ideal S1 .f32) := by
  funext i
  unfold Region0.G Cert.Mlp.net
  have eb1 : (fun k : Fin 128 => (V1 m ρ c main_v0 : Vec Ideal S1x128 .f32) (ix2 (0 : Fin 1) k))
      = fun k => (m ((c : Thread nD τ).loc main_arg7) : Vec Ideal S128 .f32) (ix1 k) := funext fun k => b1_pos m ρ c k
  rw [eb1, b2_pos m ρ c]
  rw [show V1 m ρ c main_arg3 = m ((c : Thread nD τ).loc main_arg3) from W1_main_arg3 m ρ c,
    show V1 m ρ c main_arg6 = m ((c : Thread nD τ).loc main_arg6) from W1_main_arg6 m ρ c,
    show V1 m ρ c main_arg8 = m ((c : Thread nD τ).loc main_arg8) from W1_main_arg8 m ρ c]

/-- The per-node velocity scales: the second perceptron over the node rows. -/
theorem vel_eq : Region1.G (V3 m ρ) c
    = Cert.Mlp.net (m ((c : Thread nD τ).loc main_arg0) : Vec Ideal S100000x128 .f32) (m ((c : Thread nD τ).loc main_arg10) : Vec Ideal S128x128 .f32)
        (m ((c : Thread nD τ).loc main_arg11) : Vec Ideal S128 .f32) (m ((c : Thread nD τ).loc main_arg12) : Vec Ideal S128x1 .f32) (m ((c : Thread nD τ).loc main_arg13) : Vec Ideal S1 .f32) := by
  funext i
  unfold Region1.G Cert.Mlp.net
  have eb1 : (fun k : Fin 128 => (V3 m ρ c main_v3 : Vec Ideal S1x128 .f32) (ix2 (0 : Fin 1) k))
      = fun k => (m ((c : Thread nD τ).loc main_arg11) : Vec Ideal S128 .f32) (ix1 k) := funext fun k => b1_vel m ρ c k
  rw [eb1, b2_vel m ρ c]
  rw [show V3 m ρ c main_arg0 = m ((c : Thread nD τ).loc main_arg0) from W3_main_arg0 m ρ c,
    show V3 m ρ c main_arg10 = m ((c : Thread nD τ).loc main_arg10) from W3_main_arg10 m ρ c,
    show V3 m ρ c main_arg12 = m ((c : Thread nD τ).loc main_arg12) from W3_main_arg12 m ρ c]

/-- The first region's output reaches the host tail untouched by the reshapes and by the second region. -/
theorem W4_pos : W4 m ρ c (Proc.devRef .tc main_v2) = Region0.G (V1 m ρ) c :=
  calc W4 m ρ c (Proc.devRef .tc main_v2)
    _ = W3 m ρ c (Proc.devRef .tc main_v2) := W4_of_ne m ρ c main_v2 (by decide)
    _ = W2 m ρ c (Proc.devRef .tc main_v2) := by
      show StableHlo.after hostOps1 (W2 m ρ c) (Proc.devRef .tc main_v2) = _
      after_results <;> rfl
    _ = (dat0 (V1 m ρ) c).arrAt 5 cfg0.N := W2_arr m ρ c 5
    _ = Region0.G (V1 m ρ) c := Region0.final (V1 m ρ) c

/-- The second region's output as the host tail finds it. -/
theorem W4_vel : W4 m ρ c (Proc.devRef .tc main_v5) = Region1.G (V3 m ρ) c :=
  (W4_arr m ρ c 5).trans (Region1.final (V3 m ρ) c)

/-! ## The result -/

/-- The program's result array: the message-passing update of the arguments and of the two perceptrons' outputs. -/
def result : Buf (Elt Ideal) ((c : Thread nD τ).loc main_v29) :=
  Cert.Tail.tail gather_S100000x3_S1600000x1_S1600000x3_1_0_n_n_0_1_13 scatter_S100000x3_S1600000x1_S1600000x3_1_0_0_1
    Facts₀.bcast_S_S1600000 Facts₀.bcast_S1600000_S1600000x1_0 Facts₀.bcast_S1600000x1_S1600000x3_0_1 Facts₀.bcast_S_S100000x3 Facts₀.bcast_S100000x1_S100000x3_0_1
    (m ((c : Thread nD τ).loc main_arg2)) (m ((c : Thread nD τ).loc main_arg1)) (m ((c : Thread nD τ).loc main_arg4)) (m ((c : Thread nD τ).loc main_arg5))
    (Cert.Mlp.net (m ((c : Thread nD τ).loc main_arg3) : Vec Ideal S1600000x128 .f32) (m ((c : Thread nD τ).loc main_arg6) : Vec Ideal S128x128 .f32)
      (m ((c : Thread nD τ).loc main_arg7) : Vec Ideal S128 .f32) (m ((c : Thread nD τ).loc main_arg8) : Vec Ideal S128x1 .f32) (m ((c : Thread nD τ).loc main_arg9) : Vec Ideal S1 .f32))
    (Cert.Mlp.net (m ((c : Thread nD τ).loc main_arg0) : Vec Ideal S100000x128 .f32) (m ((c : Thread nD τ).loc main_arg10) : Vec Ideal S128x128 .f32)
      (m ((c : Thread nD τ).loc main_arg11) : Vec Ideal S128 .f32) (m ((c : Thread nD τ).loc main_arg12) : Vec Ideal S128x1 .f32) (m ((c : Thread nD τ).loc main_arg13) : Vec Ideal S1 .f32))

/-- The end of the fold at the result buffer is that update. -/
theorem result_eq : W5 m ρ c (Proc.devRef .tc main_v29) = result m c := by
  have e : W5 m ρ c (Proc.devRef .tc main_v29)
      = Cert.Tail.tail gather_S100000x3_S1600000x1_S1600000x3_1_0_n_n_0_1_13 scatter_S100000x3_S1600000x1_S1600000x3_1_0_0_1
          Facts₀.bcast_S_S1600000 Facts₀.bcast_S1600000_S1600000x1_0 Facts₀.bcast_S1600000x1_S1600000x3_0_1 Facts₀.bcast_S_S100000x3 Facts₀.bcast_S100000x1_S100000x3_0_1
          (W4 m ρ c (Proc.devRef .tc main_arg2)) (W4 m ρ c (Proc.devRef .tc main_arg1)) (W4 m ρ c (Proc.devRef .tc main_arg4)) (W4 m ρ c (Proc.devRef .tc main_arg5))
          (W4 m ρ c (Proc.devRef .tc main_v2)) (W4 m ρ c (Proc.devRef .tc main_v5)) := by
    show StableHlo.after hostOps2 (W4 m ρ c) (Proc.devRef .tc main_v29) = _
    after_results_simp <;> rfl
  rw [e, W4_main_arg2, W4_main_arg1, W4_main_arg4, W4_main_arg5, W4_pos, W4_vel, pos_eq, vel_eq]
  rfl

end Cert.KernelIdeal.FoldValue

end
-- ==== Proof.RefValue.lean ====
/-
  The reference program's result as the same term of its arguments as the kernel program's.

  The reference is one straight line of host operations: the gathers of the positions at the edges' end points, the
  first perceptron over the message rows as an array program, the weighting and the scatter-add, the second
  perceptron over the node rows, and the final sums. Its result is therefore the message-passing update applied to
  the positions, velocities and end points and to the two array programs' values, and each array program is the
  perceptron's outputs row by row.
-/
import proofs.«166237_j2774548873284_1_alg».proof.Proof.Gen.ReferenceIdeal.Run
import proofs.«166237_j2774548873284_1_alg».proof.Proof.Net
import proofs.«166237_j2774548873284_1_alg».proof.Proof.Tail

set_option maxRecDepth 16384

noncomputable section

open Idealize.ShloMosaic Idealize.ShloMosaic.TcCoe Idealize.SL.Sem

namespace Cert.ReferenceIdeal.RefValue

open Cert.ReferenceIdeal Cert.ReferenceIdeal.Facts₀

/-- The reference run's result term is the update of its position, velocity and end-point arguments and of the two
    perceptrons' outputs over the message rows and over the node rows. -/
theorem result_eq (x : FVec Ideal S100000x128 .f32) (vel loc : FVec Ideal S100000x3 .f32)
    (mes : FVec Ideal S1600000x128 .f32) (send rec : IVec S1600000 32)
    (pw1 : FVec Ideal S128x128 .f32) (pb1 : FVec Ideal S128 .f32) (pw2 : FVec Ideal S128x1 .f32) (pb2 : FVec Ideal S1 .f32)
    (vw1 : FVec Ideal S128x128 .f32) (vb1 : FVec Ideal S128 .f32) (vw2 : FVec Ideal S128x1 .f32) (vb2 : FVec Ideal S1 .f32) :
    (addf (addf loc (Host.scatterAdd (F := Ideal) scatter_S100000x3_S1600000x1_S1600000x3_1_0_0_1 (broadcastInDim
      S100000x3 ![] bcast_S_S100000x3 (constant (F := Ideal) S_ .f32 0x00000000#32)) (broadcastInDim S1600000x1 ![0]
      bcast_S1600000_S1600000x1_0 rec) (mulf (subf (Host.gather gather_S100000x3_S1600000x1_S1600000x3_1_0_n_n_0_1_13
      loc (broadcastInDim S1600000x1 ![0] bcast_S1600000_S1600000x1_0 (select (cmpi .slt send (broadcastInDim S1600000
      ![] bcast_S_S1600000 (constantI S_ 32 0#32))) (addi send (broadcastInDim S1600000 ![] bcast_S_S1600000
      (constantI S_ 32 100000#32))) send))) (Host.gather gather_S100000x3_S1600000x1_S1600000x3_1_0_n_n_0_1_13 loc
      (broadcastInDim S1600000x1 ![0] bcast_S1600000_S1600000x1_0 (select (cmpi .slt rec (broadcastInDim S1600000 ![]
      bcast_S_S1600000 (constantI S_ 32 0#32))) (addi rec (broadcastInDim S1600000 ![] bcast_S_S1600000 (constantI S_
      32 100000#32))) rec)))) (broadcastInDim S1600000x3 ![0, 1] bcast_S1600000x1_S1600000x3_0_1 (addf
      (Host.dotGeneral (F := Ideal) dot_S1600000x128_S128x1_S1600000x1_1_0_0_1_n_n none (mulf (addf (Host.dotGeneral
      (F := Ideal) dot_S1600000x128_S128x128_S1600000x128_1_0_0_1_n_n none mes pw1) (broadcastInDim S1600000x128 ![0,
      1] bcast_S1x128_S1600000x128_0_1 (broadcastInDim S1x128 ![1] bcast_S128_S1x128_1 pb1))) (Host.divf (F := Ideal)
      (broadcastInDim S1600000x128 ![] bcast_S_S1600000x128 (constant (F := Ideal) S_ .f32 0x3F800000#32)) (addf
      (broadcastInDim S1600000x128 ![] bcast_S_S1600000x128 (constant (F := Ideal) S_ .f32 0x3F800000#32)) (Host.exp
      (F := Ideal) (Host.negf (F := Ideal) (addf (Host.dotGeneral (F := Ideal)
      dot_S1600000x128_S128x128_S1600000x128_1_0_0_1_n_n none mes pw1) (broadcastInDim S1600000x128 ![0, 1]
      bcast_S1x128_S1600000x128_0_1 (broadcastInDim S1x128 ![1] bcast_S128_S1x128_1 pb1)))))))) pw2) (broadcastInDim
      S1600000x1 ![0, 1] bcast_S1x1_S1600000x1_0_1 (broadcastInDim S1x1 ![1] bcast_S1_S1x1_1 pb2))))))) (mulf
      (broadcastInDim S100000x3 ![0, 1] bcast_S100000x1_S100000x3_0_1 (addf (Host.dotGeneral (F := Ideal)
      dot_S100000x128_S128x1_S100000x1_1_0_0_1_n_n none (mulf (addf (Host.dotGeneral (F := Ideal)
      dot_S100000x128_S128x128_S100000x128_1_0_0_1_n_n none x vw1) (broadcastInDim S100000x128 ![0, 1]
      bcast_S1x128_S100000x128_0_1 (broadcastInDim S1x128 ![1] bcast_S128_S1x128_1 vb1))) (Host.divf (F := Ideal)
      (broadcastInDim S100000x128 ![] bcast_S_S100000x128 (constant (F := Ideal) S_ .f32 0x3F800000#32)) (addf
      (broadcastInDim S100000x128 ![] bcast_S_S100000x128 (constant (F := Ideal) S_ .f32 0x3F800000#32)) (Host.exp (F
      := Ideal) (Host.negf (F := Ideal) (addf (Host.dotGeneral (F := Ideal)
      dot_S100000x128_S128x128_S100000x128_1_0_0_1_n_n none x vw1) (broadcastInDim S100000x128 ![0, 1]
      bcast_S1x128_S100000x128_0_1 (broadcastInDim S1x128 ![1] bcast_S128_S1x128_1 vb1)))))))) vw2) (broadcastInDim
      S100000x1 ![0, 1] bcast_S1x1_S100000x1_0_1 (broadcastInDim S1x1 ![1] bcast_S1_S1x1_1 vb2)))) vel)
      : FVec Ideal S100000x3 .f32)
    = Cert.Tail.tail gather_S100000x3_S1600000x1_S1600000x3_1_0_n_n_0_1_13 scatter_S100000x3_S1600000x1_S1600000x3_1_0_0_1
        bcast_S_S1600000 bcast_S1600000_S1600000x1_0 bcast_S1600000x1_S1600000x3_0_1 bcast_S_S100000x3 bcast_S100000x1_S100000x3_0_1
        loc vel send rec (Cert.Mlp.net mes pw1 pb1 pw2 pb2) (Cert.Mlp.net x vw1 vb1 vw2 vb2) := by
  rw [← Cert.Mlp.host_net mes pw1 pb1 pw2 pb2 bcast_S128_S1x128_1 bcast_S1x128_S1600000x128_0_1 bcast_S_S1600000x128
      bcast_S1_S1x1_1 bcast_S1x1_S1600000x1_0_1 _ rfl,
    ← Cert.Mlp.host_net x vw1 vb1 vw2 vb2 bcast_S128_S1x128_1 bcast_S1x128_S100000x128_0_1 bcast_S_S100000x128
      bcast_S1_S1x1_1 bcast_S1x1_S100000x1_0_1 _ rfl]
  rfl

end Cert.ReferenceIdeal.RefValue

end
-- ==== Proof.lean ====
/- The proof of `Cert.Claim` (proofs.«166237_j2774548873284_1_alg».proof.Defs).

   The kernel computes a graph-network position update: a two-layer perceptron (128 inputs, 128 hidden units with the
   activation h * logistic h, one output) over the 1,600,000 message rows gives a weight per edge, the same kind of
   perceptron over the 100,000 node rows gives a velocity scale per node, and the result is

       loc + scatter-add over the receiving nodes of ((loc[send] - loc[rec]) * weight) + scale * vel.

   The kernel program runs each perceptron as a tiled region (6,400 and 5,000 rows per tile) between host reshapes of
   the biases, and the update on the host; the reference is one line of host operations. On extended reals the two
   compute one term, with no law of arithmetic beyond 0 + x = x, so the precondition is never opened:

   * Proof/Mlp.lean, Proof/Net.lean: the perceptron row by row; a tile's vector program and the host's array program
     are both it (over Proof/LibMatmulPlain.lean and Proof/LibHostDotPlain.lean: a plain matrix product is a sum).
   * Proof/Region0.lean, Proof/Region1.lean: each region's output array is the perceptron's outputs row by row, for any
     contents the region is entered with (the tiles' blocks cover the rows).
   * Proof/KernelRun.lean: the program's run ends with every buffer at the end of the fold of its five stretches.
   * Proof/KernelValue.lean: that fold at the result buffer is the update of the arguments and the two outputs.
   * Proof/Tail.lean: the update as one function; Proof/RefValue.lean: the reference's result term is the same function.
   The frames of the two kernel programs are the generated ones, the reference's is its generated run; the idealization
   rewrote nothing, so `preserves` is trivial. -/
import proofs.«166237_j2774548873284_1_alg».proof.Defs
import proofs.«166237_j2774548873284_1_alg».proof.Proof.Gen.Kernel
import proofs.«166237_j2774548873284_1_alg».proof.Proof.Gen.Kernel.Frame
import proofs.«166237_j2774548873284_1_alg».proof.Proof.Gen.KernelIdeal
import proofs.«166237_j2774548873284_1_alg».proof.Proof.Gen.KernelIdeal.Frame
import proofs.«166237_j2774548873284_1_alg».proof.Proof.Gen.ReferenceIdeal
import proofs.«166237_j2774548873284_1_alg».proof.Proof.Gen.Pre_finite_inputs
import proofs.«166237_j2774548873284_1_alg».proof.Proof.Gen.ReferenceIdeal.Run
import proofs.«166237_j2774548873284_1_alg».proof.Proof.KernelRun
import proofs.«166237_j2774548873284_1_alg».proof.Proof.KernelValue
import proofs.«166237_j2774548873284_1_alg».proof.Proof.RefValue
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the update of the arguments and of the two
    perceptrons' outputs: the kernel program by its fold, the reference by its result term. -/
theorem algebraic : Cert.algebraic_KernelIdeal_ReferenceIdeal := by
  intro m ρ m' ρ' _ hagree
  refine ⟨fun c => Cert.KernelIdeal.FoldValue.result m c, ?_, ?_⟩
  · exact (θ_run Cert.KernelIdeal.defs _ _).mono
      (fun r h c => ⟨(h c).1.trans (Cert.KernelIdeal.FoldValue.result_eq m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13⟩ := hagree c
    refine (Cert.ReferenceIdeal.RefValue.result_eq _ _ _ _ _ _ _ _ _ _ _ _ _ _).trans ?_
    rw [e0, e1, e2, e3, e4, e5, e6, e7, e8, e9, e10, e11, e12, e13]
    exact Cert.Tail.tail_congr _ _ _ _ rfl rfl _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
